-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S560x10000 : Shape := ⟨2, ![560, 10000]⟩
abbrev S560x128 : Shape := ⟨2, ![560, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S560x10000, .f32⟩
  | .local _ .vmem, ⟨3, _⟩ => ⟨S560x10000, .f32⟩
  | .local _ .vmem, ⟨4, _⟩ => ⟨S560x128, .f32⟩
  | .local _ .vmem, ⟨5, _⟩ => ⟨S560x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S560x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S560x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S10000x128_S10000x128 : S10000x128.ShapeCasts S10000x128
  inb_S560x10000_S560x10000_0_0 : ∀ a, (![0, 0] : Fin 2 → Nat) a + S560x10000.size a ≤ S560x10000.size a
  h_S560x10000 : 0 < S560x10000.numel
  inb_S560x128_S560x128_0_0 : ∀ a, (![0, 0] : Fin 2 → Nat) a + S560x128.size a ≤ S560x128.size a
  h_S560x128 : 0 < S560x128.numel
  dot_S10000x128_S128x128_S10000x128_1_0_0_1_n_n_wf : DotDims.WF S10000x128 S128x128 S10000x128 [1] [0] [0] [1] [] []
  dot_S560x10000_S10000x128_S560x128_1_0_0_1_n_n_wf : DotDims.WF S560x10000 S10000x128 S560x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S560x10000.size a < S10000x10000.size a
  hwx0_2 : ∀ i : grid0.Coords, EltTy.bits .f32 = 32 ∨ (Rect.unit (s := S10000x10000) (fun a => cc0_transform_2 i a * S560x10000.size a) (fun a => (Pipeline.Clip.of (cc0_transform_2 i a) (S560x10000.size a) (S10000x10000.size a)).extent (S560x10000.size a)) fun a => Pipeline.Clip.inb (Pipeline.Clip.ok_of (hstart0_2 i a))).WholeWords (EltTy.packing .f32)
  hwxs0_2 : ∀ i : grid0.Coords, EltTy.bits .f32 = 32 ∨ (Rect.unit (s := S560x10000) (fun _ => 0) (fun a => (Pipeline.Clip.of (cc0_transform_2 i a) (S560x10000.size a) (S10000x10000.size a)).extent (S560x10000.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S560x128.size a < S10000x128.size a
  hwx0_3 : ∀ i : grid0.Coords, EltTy.bits .f32 = 32 ∨ (Rect.unit (s := S10000x128) (fun a => cc0_transform_3 i a * S560x128.size a) (fun a => (Pipeline.Clip.of (cc0_transform_3 i a) (S560x128.size a) (S10000x128.size a)).extent (S560x128.size a)) fun a => Pipeline.Clip.inb (Pipeline.Clip.ok_of (hstart0_3 i a))).WholeWords (EltTy.packing .f32)
  hwxs0_3 : ∀ i : grid0.Coords, EltTy.bits .f32 = 32 ∨ (Rect.unit (s := S560x128) (fun _ => 0) (fun a => (Pipeline.Clip.of (cc0_transform_3 i a) (S560x128.size a) (S10000x128.size a)).extent (S560x128.size a)) fun a => (Nat.zero_add _).trans_le (Pipeline.Clip.extent_le (Pipeline.Clip.ok_of (hstart0_3 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S560x10000_S10000x128_S560x128_1_0_0_1_n_n : DotDims S560x10000 S10000x128 S560x128 where
  lhsContracting := [1]
  rhsContracting := [0]
  lhsNonContracting := [0]
  rhsNonContracting := [1]
  lhsBatch := []
  rhsBatch := []
  wf := dot_S560x10000_S10000x128_S560x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg1) S560x10000.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S560x128.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | .hbm, ⟨5, _⟩ => ⟨S_, .f32⟩
  | .hbm, ⟨6, _⟩ => ⟨S10000x128, .f32⟩
  | .hbm, ⟨7, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BodyBits.lean ====
/-
  One grid step of the graph-convolution kernel, as a statement about the buffers it touches.

  The kernel keeps the projected features x · w in a scratch buffer for the whole launch. At the first grid
  step it loads the feature matrix and the weight matrix whole, multiplies them into a zero accumulator and
  stores the product into the scratch; at every step it then loads its block of 560 adjacency rows and the
  scratch, multiplies them into a zero accumulator, clamps the product below at zero and stores it into the
  result's block. So on any contents of the buffers: the first step leaves the scratch at the product of
  what the two resident inputs hold and the result block at relu(rows · that product); a later step leaves
  the scratch as it found it and the result block at relu(rows · scratch). The inputs' buffers are only read.
  Both statements hold for every float instance: they say which loads feed which stores, nothing about what
  a product is.
-/
import proofs.«181057_g37048387895419_cont_8to1_b_82_9_alg».proof.Proof.Gen.Kernel.Frame
import proofs.«181057_g37048387895419_cont_8to1_b_82_9_alg».proof.Proof.Gen.Kernel.Skeleton
import Idealize.ShloMosaic.Lib.Pipeline.Kit
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's one branch condition: "the grid coordinate is zero". -/
abbrev atFirst (i : grid0.Coords) : Prop :=
  (Scalar.cmpi .ne (Scalar.extui (Scalar.cmpi .eq (BitVec.ofNat 32 (i 0).val) 0#32)) 0#32) = 1#1

/-- Over the eighteen grid points it holds at point 0 only. -/
theorem atFirst_iff : ∀ t : Fin cfg0.N, atFirst (grid0.coords t) ↔ t.val = 0 :=
  (by decide +kernel : ∀ t : Fin grid0.N, atFirst (grid0.coords t) ↔ t.val = 0)

/-- The scratch that holds x · w between grid steps, as a whole memref. -/
abbrev scr : Memref sig .tc .vmem S10000x128 .f32 := Memref.whole cc0_scratch0

/-- What a grid step may use besides its windows: the scratch at some contents, and the generator register. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

-- every access of the body is the whole buffer at offsets zero: a load reads the contents, an unmasked
-- store replaces them; stated per buffer, for whichever of a window's two buffers the step is on
set_option hygiene false in
local macro "whole_accesses" b2:ident b3:ident : tactic => `(tactic| (
  have hz : (![0, 0] : Fin 2 → Nat) = fun _ => 0 := funext fun a => by fin_cases a <;> rfl
  have hr0 : (Memref.whole cc0_stg0_0 : Memref sig .tc _ _ _).view.readAt (Elt F) (Rect.unit (s := S10000x128) ![0, 0] S10000x128.size
      inb_S10000x128_S10000x128_0_0).toLoadRect = id := funext (Memref.readAt_unit_zero (Elt F) cc0_stg0_0 hz _)
  have hr1 : (Memref.whole cc0_stg1_0 : Memref sig .tc _ _ _).view.readAt (Elt F) (Rect.unit (s := S128x128) ![0, 0] S128x128.size
      inb_S128x128_S128x128_0_0).toLoadRect = id := funext (Memref.readAt_unit_zero (Elt F) cc0_stg1_0 hz _)
  have hr2 : (Memref.whole $b2 : Memref sig .tc _ _ _).view.readAt (Elt F) (Rect.unit (s := S560x10000) ![0, 0] S560x10000.size
      inb_S560x10000_S560x10000_0_0).toLoadRect = id := funext (Memref.readAt_unit_zero (Elt F) $b2 hz _)
  have hrs : (Memref.whole cc0_scratch0 : Memref sig .tc _ _ _).view.readAt (Elt F) (Rect.unit (s := S10000x128) ![0, 0] S10000x128.size
      inb_S10000x128_S10000x128_0_0).toLoadRect = id := funext (Memref.readAt_unit_zero (Elt F) cc0_scratch0 hz _)
  have hws : ∀ f w, (((Memref.whole cc0_scratch0).access (Rect.unit (s := S10000x128) ![0, 0] S10000x128.size inb_S10000x128_S10000x128_0_0)) :
      View sig .tc _ _ _).write (Elt F) f w Finset.univ = w := Memref.write_access_unit_zero_univ (Elt F) cc0_scratch0 hz _
  have hw3 : ∀ f w, (((Memref.whole $b3).access (Rect.unit (s := S560x128) ![0, 0] S560x128.size inb_S560x128_S560x128_0_0)) :
      View sig .tc _ _ _).write (Elt F) f w Finset.univ = w := Memref.write_access_unit_zero_univ (Elt F) $b3 hz _))

set_option hygiene false in
local macro "hand_back" : tactic => `(tactic| (
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2))

set_option hygiene false in
local macro "later_step" b2:ident b3:ident : tactic => `(tactic| (
  whole_accesses $b2 $b3
  simp only [owns_whole_eq, cc0__gcn_kernel_eq_skeleton]; unfold cc0__gcn_kernel_skel
  dsimp only
  rw [dif_neg hc]
  simp only [Prog.lift, Prog.bind_op, Prog.bind_ret]
  iintro ⟨⟨⟨%f0, %hf0, H0⟩, ⟨%f1, %hf1, H1⟩, ⟨%f2, %hf2, H2⟩, ⟨%f3, %hf3, H3⟩, ⟨%fs, %hfs, HS⟩⟩, Hk⟩
  sl_steps
  iapply Hk
  rw [hr2, hrs, hw3]
  hand_back
  isplitl [H3]
  · iexists k0_pay2 f2 fs; isplitr; · ipureintro; rw [hf2, hfs]
    iexact H3
  · iexists fs; isplitr; · ipureintro; exact hfs
    iexact HS))

set_option hygiene false in
local macro "first_step" b2:ident b3:ident : tactic => `(tactic| (
  whole_accesses $b2 $b3
  simp only [owns_whole_eq, cc0__gcn_kernel_eq_skeleton]; unfold cc0__gcn_kernel_skel
  dsimp only
  rw [dif_pos hc]
  simp only [Prog.lift, Prog.bind_op, Prog.bind_ret]
  iintro ⟨⟨⟨%f0, %hf0, H0⟩, ⟨%f1, %hf1, H1⟩, ⟨%f2, %hf2, H2⟩, ⟨%f3, %hf3, H3⟩, ⟨%fs, %hfs, HS⟩⟩, Hk⟩
  sl_steps
  iapply Hk
  rw [hr0, hr1, hr2, hrs, hws, hw3]
  hand_back
  isplitl [H3]
  · iexists k0_pay2 f2 (k0_pay1 f0 f1); isplitr; · ipureintro; rw [hf0, hf1, hf2]
    iexact H3
  · iexists k0_pay1 f0 f1; isplitr; · ipureintro; rw [hf0, hf1]
    iexact HS))

set_option maxHeartbeats 1600000 in
/-- A grid step after the first, on whichever buffer of each window the step is on (`s0` … `s3`): the result
    block ends at relu(rows · scratch); everything else is handed back as found. -/
theorem later_step (c : Dev nD) (E : Set ℕ) (i : grid0.Coords) (hc : ¬atFirst i) (s0 s1 : Fin 1) (s2 s3 : Fin 2)
    (X0 S : S10000x128.Idx → Elt F .f32) (X1 : S128x128.Idx → Elt F .f32) (X2 : S560x10000.Idx → Elt F .f32)
    (X3 : S560x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) scr fullShare S)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare (k0_pay2 X2 S)
                  ∗ owns (c : Thread nD τ) scr fullShare S) -∗ K ⟨⟩))
      ⊢ wp frame (wpE (defs₀ (F := F)) Variants.none c none) E
          (cc0__gcn_kernel i (stage0_0 s0) (hstage0_0 s0) (stage0_1 s1) (hstage0_1 s1) (stage0_2 s2) (hstage0_2 s2)
            (stage0_3 s3) (hstage0_3 s3) scr (Memref.isWhole_whole _)) K := by
  fin_cases s0; fin_cases s1
  fin_cases s2 <;> fin_cases s3
  · later_step cc0_stg2_0 cc0_stg3_0
  · later_step cc0_stg2_0 cc0_stg3_1
  · later_step cc0_stg2_1 cc0_stg3_0
  · later_step cc0_stg2_1 cc0_stg3_1

set_option maxHeartbeats 1600000 in
/-- The first grid step: the scratch ends at the product of what the two resident inputs' buffers hold, the
    result block at relu(rows · that product); the inputs' buffers are handed back as found. -/
theorem first_step (c : Dev nD) (E : Set ℕ) (i : grid0.Coords) (hc : atFirst i) (s0 s1 : Fin 1) (s2 s3 : Fin 2)
    (X0 S : S10000x128.Idx → Elt F .f32) (X1 : S128x128.Idx → Elt F .f32) (X2 : S560x10000.Idx → Elt F .f32)
    (X3 : S560x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) scr fullShare S)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay2 X2 (k0_pay1 X0 X1))
                  ∗ owns (c : Thread nD τ) scr fullShare (k0_pay1 X0 X1)) -∗ K ⟨⟩))
      ⊢ wp frame (wpE (defs₀ (F := F)) Variants.none c none) E
          (cc0__gcn_kernel i (stage0_0 s0) (hstage0_0 s0) (stage0_1 s1) (hstage0_1 s1) (stage0_2 s2) (hstage0_2 s2)
            (stage0_3 s3) (hstage0_3 s3) scr (Memref.isWhole_whole _)) K := by
  fin_cases s0; fin_cases s1
  fin_cases s2 <;> fin_cases s3
  · first_step cc0_stg2_0 cc0_stg3_0
  · first_step cc0_stg2_0 cc0_stg3_1
  · first_step cc0_stg2_1 cc0_stg3_0
  · first_step cc0_stg2_1 cc0_stg3_1

end Cert.Kernel.Body

end
-- ==== Proof.FrameBits.lean ====
/-
  The frame of the word-level graph-convolution kernel: it terminates, faults nowhere, and leaves its three
  argument arrays as it found them.

  Only the frame is claimed of this program, so nothing that any buffer holds needs a name. Every window of the
  pipeline is therefore FORGOTTEN: at each grid step each window's current staging buffer is handed to the body
  at some contents and taken back at some contents, and the scratch that carries x · w between steps is, like
  the generator register, part of the invariant "held at some contents". One grid step needs no more than
  that: it reads and writes whole buffers it owns, whatever they hold (the first step and the later steps
  differ only in which buffers they overwrite). That is enough for the frame because an input window's array
  is never written back — the pipeline only copies blocks out of it — so after the last step it still holds
  its entry contents, whatever passed through the staging buffers; and the result's array, of which nothing is
  claimed, may hold anything.
-/
import proofs.«181057_g37048387895419_cont_8to1_b_82_9_alg».proof.Proof.Gen.Kernel.Frame
import proofs.«181057_g37048387895419_cont_8to1_b_82_9_alg».proof.Proof.Gen.Kernel.Skeleton
import Idealize.ShloMosaic.Lib.Pipeline.Kit
import Idealize.ShloMosaic.Lib.Tactic
import proofs.«181057_g37048387895419_cont_8to1_b_82_9_alg».proof.Proof.BodyBits

set_option maxRecDepth 16384

noncomputable section

namespace Cert.Kernel.KFrame

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- Every window is forgotten: the two resident inputs, the adjacency rows and the result alike. -/
def forgetsAll : Fin 4 → Bool := fun _ => true

/-- The proof data of the one pipeline on core `c`: the arrays as the region finds them; what the body leaves in
    any window's buffer unnamed; the invariant "the scratch at some contents, and the generator register"; full
    shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-! ## One grid step -/

/-- The body obligation at every point, every window forgotten: from the scratch and the four current staging
    buffers at any contents the step runs — as the first step where the grid coordinate is zero, as a later step
    elsewhere — and hands all five back at some contents; the generator register and what the core owes pass
    through untouched. -/
theorem body_obligation (c : Dev nD) : BodyObligation (dats (F := F) m 0 c) (defs₀ (F := F)) Variants.none () Set.univ forgetsAll := fun t => by
  rw [bigSep_W0, bigSep_W0]
  simp only [forgetsAll]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq]
  show _ ⊢ wp _ _ _ (bodyAt0 t) _
  iintro ⟨⟨⟨%S, HS⟩, Hr⟩, Ho, ⟨%X0, H0⟩, ⟨%X1, H1⟩, ⟨%X2, H2⟩, ⟨%X3, H3⟩⟩
  by_cases hc : atFirst (grid0.coords t)
  · iapply (first_step c Set.univ (grid0.coords t) hc (cfg0.slots t 0) (cfg0.slots t 1) (cfg0.slots t 2) (cfg0.slots t 3)
      X0 S X1 X2 X3 _)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    isplitl [HS Hr]
    · isplitl [HS]; · iexists _; iexact HS
      iexact Hr
    isplitl [Ho]; · iexact Ho
    isplitl [H0]; · iexists _; iexact H0
    isplitl [H1]; · iexists _; iexact H1
    isplitl [H2]; · iexists _; iexact H2
    iexists _; iexact H3
  · iapply (later_step c Set.univ (grid0.coords t) hc (cfg0.slots t 0) (cfg0.slots t 1) (cfg0.slots t 2) (cfg0.slots t 3)
      X0 S X1 X2 X3 _)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    isplitl [HS Hr]
    · isplitl [HS]; · iexists _; iexact HS
      iexact Hr
    isplitl [Ho]; · iexact Ho
    isplitl [H0]; · iexists _; iexact H0
    isplitl [H1]; · iexists _; iexact H1
    isplitl [H2]; · iexists _; iexact H2
    iexists _; iexact H3

/-! ## The run and the frame -/

set_option backward.isDefEq.respectTransparency.types false in
/-- From any memory with zero counters, every weakly fair execution of @main on the TensorCores terminates, and in
    every final state each window's array holds something it may hold after the write-backs — for an input window,
    which has none, its entry contents — and every other unscoped buffer its entry contents. -/
theorem run_main : θ_run defs (onTc (τ := τ) (main (F := F))) (s₀ m ρ)
    (Pipeline.RDat.FramePost (cfgs 0) (fun c => (dats m 0 c).toRForget forgetsAll) (V m)) :=
  Pipeline.RDat.θ_run_frame cfgs (0 : Fin 1) launch0 defs₀ Variants.none (fun c => (dats m 0 c).toRForget forgetsAll) m ρ main
    (hbody := fun c => (body_obligation m c).toRForget)
    (hshare := fun c => ((dats m 0 c).toRForget forgetsAll).share_full fun _ => rfl)
    (howed := fun _ _ => rfl) (V := V m) (hmain := hmain m Variants.none) (hA := A_eq m) (hΦ := fun _ _ => rfl)

/-- THE FRAME, at any float instance: the run terminates and the feature matrix (window 0's array), the adjacency
    matrix (window 2's) and the weight matrix (window 1's) end as they began. Each is an input window's array, so
    what it may hold at the end is its entry contents, which are the launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun (((dats m 0 c).toRForget forgetsAll).ArrAt_in 0 rfl _) _) ((h c).1 0)).trans
        ((A_eq m c 0).trans (V_main_arg0 m c)),
      (Eq.mp (congrFun (((dats m 0 c).toRForget forgetsAll).ArrAt_in 2 rfl _) _) ((h c).1 2)).trans
        ((A_eq m c 2).trans (V_main_arg1 m c)),
      (Eq.mp (congrFun (((dats m 0 c).toRForget forgetsAll).ArrAt_in 1 rfl _) _) ((h c).1 1)).trans
        ((A_eq m c 1).trans (V_main_arg2 m c))⟩) (run_main m ρ)

end Cert.Kernel.KFrame

end
-- ==== Proof.BodyIdeal.lean ====
/-
  One grid step of the graph-convolution kernel, as a statement about the buffers it touches.

  The kernel keeps the projected features x · w in a scratch buffer for the whole launch. At the first grid
  step it loads the feature matrix and the weight matrix whole, multiplies them into a zero accumulator and
  stores the product into the scratch; at every step it then loads its block of 560 adjacency rows and the
  scratch, multiplies them into a zero accumulator, clamps the product below at zero and stores it into the
  result's block. So on any contents of the buffers: the first step leaves the scratch at the product of
  what the two resident inputs hold and the result block at relu(rows · that product); a later step leaves
  the scratch as it found it and the result block at relu(rows · scratch). The inputs' buffers are only read.
  Both statements hold for every float instance: they say which loads feed which stores, nothing about what
  a product is.
-/
import proofs.«181057_g37048387895419_cont_8to1_b_82_9_alg».proof.Proof.Gen.KernelIdeal.Frame
import proofs.«181057_g37048387895419_cont_8to1_b_82_9_alg».proof.Proof.Gen.KernelIdeal.Skeleton
import Idealize.ShloMosaic.Lib.Pipeline.Kit
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The kernel's one branch condition: "the grid coordinate is zero". -/
abbrev atFirst (i : grid0.Coords) : Prop :=
  (Scalar.cmpi .ne (Scalar.extui (Scalar.cmpi .eq (BitVec.ofNat 32 (i 0).val) 0#32)) 0#32) = 1#1

/-- Over the eighteen grid points it holds at point 0 only. -/
theorem atFirst_iff : ∀ t : Fin cfg0.N, atFirst (grid0.coords t) ↔ t.val = 0 :=
  (by decide +kernel : ∀ t : Fin grid0.N, atFirst (grid0.coords t) ↔ t.val = 0)

/-- The scratch that holds x · w between grid steps, as a whole memref. -/
abbrev scr : Memref sig .tc .vmem S10000x128 .f32 := Memref.whole cc0_scratch0

/-- What a grid step may use besides its windows: the scratch at some contents, and the generator register. -/
theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

-- every access of the body is the whole buffer at offsets zero: a load reads the contents, an unmasked
-- store replaces them; stated per buffer, for whichever of a window's two buffers the step is on
set_option hygiene false in
local macro "whole_accesses" b2:ident b3:ident : tactic => `(tactic| (
  have hz : (![0, 0] : Fin 2 → Nat) = fun _ => 0 := funext fun a => by fin_cases a <;> rfl
  have hr0 : (Memref.whole cc0_stg0_0 : Memref sig .tc _ _ _).view.readAt (Elt F) (Rect.unit (s := S10000x128) ![0, 0] S10000x128.size
      inb_S10000x128_S10000x128_0_0).toLoadRect = id := funext (Memref.readAt_unit_zero (Elt F) cc0_stg0_0 hz _)
  have hr1 : (Memref.whole cc0_stg1_0 : Memref sig .tc _ _ _).view.readAt (Elt F) (Rect.unit (s := S128x128) ![0, 0] S128x128.size
      inb_S128x128_S128x128_0_0).toLoadRect = id := funext (Memref.readAt_unit_zero (Elt F) cc0_stg1_0 hz _)
  have hr2 : (Memref.whole $b2 : Memref sig .tc _ _ _).view.readAt (Elt F) (Rect.unit (s := S560x10000) ![0, 0] S560x10000.size
      inb_S560x10000_S560x10000_0_0).toLoadRect = id := funext (Memref.readAt_unit_zero (Elt F) $b2 hz _)
  have hrs : (Memref.whole cc0_scratch0 : Memref sig .tc _ _ _).view.readAt (Elt F) (Rect.unit (s := S10000x128) ![0, 0] S10000x128.size
      inb_S10000x128_S10000x128_0_0).toLoadRect = id := funext (Memref.readAt_unit_zero (Elt F) cc0_scratch0 hz _)
  have hws : ∀ f w, (((Memref.whole cc0_scratch0).access (Rect.unit (s := S10000x128) ![0, 0] S10000x128.size inb_S10000x128_S10000x128_0_0)) :
      View sig .tc _ _ _).write (Elt F) f w Finset.univ = w := Memref.write_access_unit_zero_univ (Elt F) cc0_scratch0 hz _
  have hw3 : ∀ f w, (((Memref.whole $b3).access (Rect.unit (s := S560x128) ![0, 0] S560x128.size inb_S560x128_S560x128_0_0)) :
      View sig .tc _ _ _).write (Elt F) f w Finset.univ = w := Memref.write_access_unit_zero_univ (Elt F) $b3 hz _))

set_option hygiene false in
local macro "hand_back" : tactic => `(tactic| (
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2))

set_option hygiene false in
local macro "later_step" b2:ident b3:ident : tactic => `(tactic| (
  whole_accesses $b2 $b3
  simp only [owns_whole_eq, cc0__gcn_kernel_eq_skeleton]; unfold cc0__gcn_kernel_skel
  dsimp only
  rw [dif_neg hc]
  simp only [Prog.lift, Prog.bind_op, Prog.bind_ret]
  iintro ⟨⟨⟨%f0, %hf0, H0⟩, ⟨%f1, %hf1, H1⟩, ⟨%f2, %hf2, H2⟩, ⟨%f3, %hf3, H3⟩, ⟨%fs, %hfs, HS⟩⟩, Hk⟩
  sl_steps
  iapply Hk
  rw [hr2, hrs, hw3]
  hand_back
  isplitl [H3]
  · iexists k0_pay2 f2 fs; isplitr; · ipureintro; rw [hf2, hfs]
    iexact H3
  · iexists fs; isplitr; · ipureintro; exact hfs
    iexact HS))

set_option hygiene false in
local macro "first_step" b2:ident b3:ident : tactic => `(tactic| (
  whole_accesses $b2 $b3
  simp only [owns_whole_eq, cc0__gcn_kernel_eq_skeleton]; unfold cc0__gcn_kernel_skel
  dsimp only
  rw [dif_pos hc]
  simp only [Prog.lift, Prog.bind_op, Prog.bind_ret]
  iintro ⟨⟨⟨%f0, %hf0, H0⟩, ⟨%f1, %hf1, H1⟩, ⟨%f2, %hf2, H2⟩, ⟨%f3, %hf3, H3⟩, ⟨%fs, %hfs, HS⟩⟩, Hk⟩
  sl_steps
  iapply Hk
  rw [hr0, hr1, hr2, hrs, hws, hw3]
  hand_back
  isplitl [H3]
  · iexists k0_pay2 f2 (k0_pay1 f0 f1); isplitr; · ipureintro; rw [hf0, hf1, hf2]
    iexact H3
  · iexists k0_pay1 f0 f1; isplitr; · ipureintro; rw [hf0, hf1]
    iexact HS))

set_option maxHeartbeats 1600000 in
/-- A grid step after the first, on whichever buffer of each window the step is on (`s0` … `s3`): the result
    block ends at relu(rows · scratch); everything else is handed back as found. -/
theorem later_step (c : Dev nD) (E : Set ℕ) (i : grid0.Coords) (hc : ¬atFirst i) (s0 s1 : Fin 1) (s2 s3 : Fin 2)
    (X0 S : S10000x128.Idx → Elt F .f32) (X1 : S128x128.Idx → Elt F .f32) (X2 : S560x10000.Idx → Elt F .f32)
    (X3 : S560x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) scr fullShare S)
          ∗ (iprop(owns (c : Thread nD τ) (stage0_0 s0) fullShare X0 ∗ owns (c : Thread nD τ) (stage0_1 s1) fullShare X1
                  ∗ owns (c : Thread nD τ) (stage0_2 s2) fullShare X2 ∗ owns (c : Thread nD τ) (stage0_3 s3) fullShare (k0_pay2 X2 S)
                  ∗ owns (c : Thread nD τ) scr fullShare S) -∗ K ⟨⟩))
      ⊢ wp frame (wpE (defs₀ (F := F)) Variants.none c none) E
          (cc0__gcn_kernel i (stage0_0 s0) (hstage0_0 s0) (stage0_1 s1) (hstage0_1 s1) (stage0_2 s2) (hstage0_2 s2)
            (stage0_3 s3) (hstage0_3 s3) scr (Memref.isWhole_whole _)) K := by
  fin_cases s0; fin_cases s1
  fin_cases s2 <;> fin_cases s3
  · later_step cc0_stg2_0 cc0_stg3_0
  · later_step cc0_stg2_0 cc0_stg3_1
  · later_step cc0_stg2_1 cc0_stg3_0
  · later_step cc0_stg2_1 cc0_stg3_1

set_option maxHeartbeats 1600000 in
/-- The first grid step: the scratch ends at the product of what the two resident inputs' buffers hold, the
    result block at relu(rows · that product); the inputs' buffers are handed back as found. -/
theorem first_step (c : Dev nD) (E : Set ℕ) (i : grid0.Coords) (hc : atFirst i) (s0 s1 : Fin 1) (s2 s3 : Fin 2)
    (X0 S : S10000x128.Idx → Elt F .f32) (X1 : S128x128.Idx → Elt F .f32) (X2 : S560x10000.Idx → Elt F .f32)
    (X3 : S560x128.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3
            ∗ owns (c : Thread nD τ) scr fullShare S)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (k0_pay2 X2 (k0_pay1 X0 X1))
                  ∗ owns (c : Thread nD τ) scr fullShare (k0_pay1 X0 X1)) -∗ K ⟨⟩))
      ⊢ wp frame (wpE (defs₀ (F := F)) Variants.none c none) E
          (cc0__gcn_kernel i (stage0_0 s0) (hstage0_0 s0) (stage0_1 s1) (hstage0_1 s1) (stage0_2 s2) (hstage0_2 s2)
            (stage0_3 s3) (hstage0_3 s3) scr (Memref.isWhole_whole _)) K := by
  fin_cases s0; fin_cases s1
  fin_cases s2 <;> fin_cases s3
  · first_step cc0_stg2_0 cc0_stg3_0
  · first_step cc0_stg2_0 cc0_stg3_1
  · first_step cc0_stg2_1 cc0_stg3_0
  · first_step cc0_stg2_1 cc0_stg3_1

end Cert.KernelIdeal.Body

end
-- ==== Proof.LibContract.lean ====
/-
  A matrix product's contraction as a plain sum.

  A product of an [n0, K] matrix with a [K, n1] matrix whose dimension numbers contract the left operand's
  second axis with the right operand's first sums, at the result index (r, c), over the positions of a
  one-axis contraction shape. Re-indexed by that axis' coordinate it is the textbook sum
  ∑ k < K, l (r, k) · r (k, c). The statement is for any dimension record of those shapes: what the record
  owes is that it has one contracting axis of extent K (left axis 1, right axis 0) and that the two free
  axes read the result's coordinates.
-/
import Idealize.ShloMosaic.Lib.ValueIdx

noncomputable section

open scoped BigOperators

namespace Idealize.ShloMosaic.Contract2

open Idealize.ShloMosaic Idealize.ShloMosaic.ValueIdx

/-- The contraction sum of a matrix product at a result index is the sum over the shared coordinate. -/
theorem sum_contr_eq_sum_fin {n0 n1 K : ℕ} {M : Type*} [AddCommMonoid M] [Mul M]
    (D : DotDims (⟨2, ![n0, K]⟩ : Shape) (⟨2, ![K, n1]⟩ : Shape) (⟨2, ![n0, n1]⟩ : Shape))
    (hr : D.contr.rank = 1) (hs : D.contr.size ⟨0, by omega⟩ = K)
    (hlc : D.lhsContracting = [1]) (hrc : D.rhsContracting = [0])
    (hl0 : ∀ j q, (D.lhsIdx j q 0).val = (j 0).val) (hr1 : ∀ j q, (D.rhsIdx j q 1).val = (j 1).val)
    (l : (⟨2, ![n0, K]⟩ : Shape).Idx → M) (r : (⟨2, ![K, n1]⟩ : Shape).Idx → M) (j : (⟨2, ![n0, n1]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have h1 := D.lhsIdx_val_of_single hlc j ((contrEquiv1 D K hr hs).symm k)
  have h2 := D.rhsIdx_val_of_single hrc j ((contrEquiv1 D K hr hs).symm k)
  have el : D.lhsIdx j ((contrEquiv1 D K hr hs).symm k) = ix2 (j 0) k := funext fun a => Fin.ext (by
    match a with
    | ⟨0, _⟩ => exact hl0 _ _
    | ⟨1, _⟩ => exact h1.trans hk)
  have er : D.rhsIdx j ((contrEquiv1 D K hr hs).symm k) = ix2 k (j 1) := funext fun a => Fin.ext (by
    match a with
    | ⟨0, _⟩ => exact h2.trans hk
    | ⟨1, _⟩ => exact hr1 _ _)
  exact congrArg₂ (· * ·) (congrArg l el) (congrArg r er)

end Idealize.ShloMosaic.Contract2

end
-- ==== Proof.Payload.lean ====
/-
  The kernel's two arithmetic steps, read entry by entry on the extended reals. The first multiplies the
  10000 × 128 feature matrix by the 128 × 128 weight matrix into a zero accumulator and casts the result to its
  own shape: its entry (k, l) is the sum over j of X0(k, j) · X1(j, l). The second multiplies a 560 × 10000 block
  of rows of the adjacency matrix by the 10000 × 128 matrix of projected features into a zero accumulator and
  takes the maximum with the constant zero: its entry (r, l) is max(∑ k, A(r, k) · S(k, l), 0). In both, the
  product's contraction is over one axis (the left operand's second, the right operand's first), so its sum over
  the contraction shape is the sum over that axis' coordinate.
-/
import proofs.«181057_g37048387895419_cont_8to1_b_82_9_alg».proof.Proof.Gen.KernelIdeal.Skeleton
import proofs.«181057_g37048387895419_cont_8to1_b_82_9_alg».proof.Proof.LibContract
import Idealize.ShloMosaic.PureOps.Ideal.Laws
import Idealize.ShloMosaic.Lib.ValueIdx
import Idealize.ShloMosaic.Lib.Pipeline.Value

noncomputable section

open scoped BigOperators

namespace Cert.KernelIdeal.Payload

open Cert.KernelIdeal Cert.KernelIdeal.Gen Idealize.ShloMosaic Idealize.ShloMosaic.ValueIdx

/-! ## The free axes of the two products read the result's coordinates -/

theorem lhs1_0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl

theorem rhs1_1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

theorem lhs2_0 (j : S560x128.Idx) (q : dot_S560x10000_S10000x128_S560x128_1_0_0_1_n_n.contr.Idx) :
    (dot_S560x10000_S10000x128_S560x128_1_0_0_1_n_n.lhsIdx j q 0).val = (j 0).val := by
  unfold DotDims.lhsIdx
  rw [dif_neg (show ¬(0 : Fin S560x10000.rank) ∈ dot_S560x10000_S10000x128_S560x128_1_0_0_1_n_n.lhsBatch by decide),
    dif_pos (show (0 : Fin S560x10000.rank) ∈ dot_S560x10000_S10000x128_S560x128_1_0_0_1_n_n.lhsNonContracting by decide)]
  rfl

theorem rhs2_1 (j : S560x128.Idx) (q : dot_S560x10000_S10000x128_S560x128_1_0_0_1_n_n.contr.Idx) :
    (dot_S560x10000_S10000x128_S560x128_1_0_0_1_n_n.rhsIdx j q 1).val = (j 1).val := by
  unfold DotDims.rhsIdx
  rw [dif_neg (show ¬(1 : Fin S10000x128.rank) ∈ dot_S560x10000_S10000x128_S560x128_1_0_0_1_n_n.rhsBatch by decide),
    dif_pos (show (1 : Fin S10000x128.rank) ∈ dot_S560x10000_S10000x128_S560x128_1_0_0_1_n_n.rhsNonContracting by decide)]
  rfl

/-! ## The two steps at an entry -/

/-- The projection step: entry (k, l) of X0 · X1. -/
theorem pay1_apply (X0 : Vec Ideal S10000x128 .f32) (X1 : Vec Ideal S128x128 .f32) (k : Fin 10000) (l : Fin 128) :
    k0_pay1 (F := Ideal) X0 X1 (ix2 k l) = ∑ j : Fin 128, X0 (ix2 k j) * X1 (ix2 j l) := by
  unfold k0_pay1
  show shapeCast S10000x128 (fun i => FloatOps.matmul dot_S10000x128_S128x128_S10000x128_1_0_0_1_n_n none X0 X1
      (constant (F := Ideal) S10000x128 .f32 0x00000000#32) i) Facts₀.shapeCasts_S10000x128_S10000x128 (ix2 k l) = _
  rw [shapeCast_self]
  refine (Ideal.matmul_constant_zero_apply dot_S10000x128_S128x128_S10000x128_1_0_0_1_n_n none X0 X1 (ix2 k l)).trans ?_
  exact Contract2.sum_contr_eq_sum_fin dot_S10000x128_S128x128_S10000x128_1_0_0_1_n_n rfl rfl rfl rfl lhs1_0 rhs1_1 X0 X1 (ix2 k l)

/-- The aggregation step: entry (r, l) of relu(A · S). -/
theorem pay2_apply (A : Vec Ideal S560x10000 .f32) (S : Vec Ideal S10000x128 .f32) (r : Fin 560) (l : Fin 128) :
    k0_pay2 (F := Ideal) A S (ix2 r l) = max (∑ k : Fin 10000, A (ix2 r k) * S (ix2 k l)) 0 := by
  unfold k0_pay2
  show max (FloatOps.matmul dot_S560x10000_S10000x128_S560x128_1_0_0_1_n_n none A S
      (constant (F := Ideal) S560x128 .f32 0x00000000#32) (ix2 r l)) (Ideal.ofBits .f32 0x00000000#32) = _
  rw [Ideal.ofBits_zero_f32]
  refine congrArg (fun t => max t 0) ?_
  refine (Ideal.matmul_constant_zero_apply dot_S560x10000_S10000x128_S560x128_1_0_0_1_n_n none A S (ix2 r l)).trans ?_
  exact Contract2.sum_contr_eq_sum_fin dot_S560x10000_S10000x128_S560x128_1_0_0_1_n_n rfl rfl rfl rfl lhs2_0 rhs2_1 A S (ix2 r l)

end Cert.KernelIdeal.Payload

end
-- ==== Proof.Spec.lean ====
/-
  A graph-convolution layer over 10000 nodes with 128 input and 128 output features, as a function of the
  feature matrix `x`, the dense adjacency matrix `adj` and the weight matrix `w`, on the extended reals:
  relu(adj · x · w), with the triple product bracketed in its two ways. Projecting the features first and
  aggregating over the neighbours afterwards multiplies a 10000 × 10000 matrix by a 10000 × 128 one once;
  aggregating first is the order the product is usually written in. On finite entries the two agree
  (associativity of the matrix product); at the infinities they need not, which is why the equality is
  proved under finiteness elsewhere and only the two functions are stated here.
-/
import Idealize.ShloMosaic.PureOps.Ideal
import Idealize.ShloMosaic.Lib.ValueIdx

noncomputable section

open scoped BigOperators

namespace GraphConv

open Idealize.ShloMosaic Idealize.ShloMosaic.ValueIdx

/-- Node features, or the layer's result: one row per node, one column per feature. -/
abbrev SNodeFeat : Shape := ⟨2, ![10000, 128]⟩
/-- The dense adjacency matrix: entry (i, k) weighs node k's contribution to node i. -/
abbrev SAdj : Shape := ⟨2, ![10000, 10000]⟩
/-- The weight matrix: input feature by output feature. -/
abbrev SWeight : Shape := ⟨2, ![128, 128]⟩

/-- The projected features x · w: at node k and output feature l, the sum over the input features j of
    x(k, j) · w(j, l). -/
def proj (x : SNodeFeat.Idx → EReal) (w : SWeight.Idx → EReal) : SNodeFeat.Idx → EReal :=
  fun i => ∑ j : Fin 128, x (ix2 (i 0) j) * w (ix2 j (i 1))

/-- relu(adj · (x · w)): project every node's features, then sum the projections over the neighbours, then
    clamp below at zero. -/
def aggOfProj (x : SNodeFeat.Idx → EReal) (adj : SAdj.Idx → EReal) (w : SWeight.Idx → EReal) : SNodeFeat.Idx → EReal :=
  fun i => max (∑ k : Fin 10000, adj (ix2 (i 0) k) * proj x w (ix2 k (i 1))) 0

/-- relu((adj · x) · w): sum the raw features over the neighbours, then project the sums, then clamp below
    at zero. -/
def projOfAgg (x : SNodeFeat.Idx → EReal) (adj : SAdj.Idx → EReal) (w : SWeight.Idx → EReal) : SNodeFeat.Idx → EReal :=
  fun i => max (∑ j : Fin 128, (∑ k : Fin 10000, adj (ix2 (i 0) k) * x (ix2 k j)) * w (ix2 j (i 1))) 0

end GraphConv

end
-- ==== Proof.KernelValue.lean ====
/-
  What the graph-convolution kernel leaves in its result array, on the extended reals.

  The launch visits eighteen blocks of 560 rows of the 10000 × 10000 adjacency matrix; the last block overhangs
  the matrix by 80 rows, so its fetch fills only the first 480 rows of the staging buffer and leaves the others at
  contents nothing names, and its write-back writes only the first 480 rows of what the step stored. The feature
  matrix x and the weight matrix w are fetched once, whole. The first step stores x · w into a scratch that every
  later step reads; so between steps the scratch holds x · w, and before the first step anything.

  Row r of a step's result block is relu of (row r of the adjacency block) · (x · w): it depends on that one row of
  the block only. Hence the rows the write-back moves — those inside the array — are the same whatever the fetch
  left in the overhanging rows, and they are the corresponding rows of relu(adj · (x · w)). The blocks' rows inside
  the array cover all 10000 rows (row i lies in block i / 560), so the result array ends at relu(adj · (x · w)),
  every entry, and the three argument arrays end as they began.
-/
import proofs.«181057_g37048387895419_cont_8to1_b_82_9_alg».proof.Proof.BodyIdeal
import proofs.«181057_g37048387895419_cont_8to1_b_82_9_alg».proof.Proof.Payload
import proofs.«181057_g37048387895419_cont_8to1_b_82_9_alg».proof.Proof.Spec
import Idealize.ShloMosaic.Lib.Pipeline.Value
import Idealize.ShloMosaic.Lib.ValueIdx

set_option maxRecDepth 16384

noncomputable section

open scoped BigOperators

namespace Cert.KernelIdeal.KValue

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The first grid point. -/
abbrev t0 : Fin cfg0.N := ⟨0, by rw [show cfg0.N = 18 from N_0]; omega⟩

/-- x · w as the first step computes it: the product of the two resident inputs' blocks at the first point (each the
    whole array). -/
def xw (c : Dev nD) : S10000x128.Idx → EReal := k0_pay1 (F := Ideal) (iblk m c 0 t0) (iblk m c 1 t0)

/-- What the result array must end at: relu(adj · (x · w)) of the three argument arrays as the launch finds them. -/
def G (c : Dev nD) : S10000x128.Idx → EReal :=
  GraphConv.aggOfProj (V m c main_arg0) (V m c main_arg1) (V m c main_arg2)

/-- The printed index maps and clipped block sizes, decided over the eighteen grid points: block `t` of the adjacency
    matrix and of the result starts at row 560 · t and spans all columns; the two windows are cut alike, to
    min(560, 10000 − 560 · t) rows. -/
theorem grid_facts : ∀ t : Fin cfg0.N,
    win0_2.index t 0 = t.val ∧ win0_2.index t 1 = 0 ∧ win0_3.index t 0 = t.val ∧ win0_3.index t 1 = 0
    ∧ win0_2.xsize (grid0.coords t) 0 = win0_3.xsize (grid0.coords t) 0
    ∧ win0_2.xsize (grid0.coords t) 1 = 10000 ∧ win0_3.xsize (grid0.coords t) 1 = 128
    ∧ win0_3.xsize (grid0.coords t) 0 = min 560 (10000 - t.val * 560) :=
  (by decide +kernel : ∀ t : Fin grid0.N,
    win0_2.index t 0 = t.val ∧ win0_2.index t 1 = 0 ∧ win0_3.index t 0 = t.val ∧ win0_3.index t 1 = 0
    ∧ win0_2.xsize (grid0.coords t) 0 = win0_3.xsize (grid0.coords t) 0
    ∧ win0_2.xsize (grid0.coords t) 1 = 10000 ∧ win0_3.xsize (grid0.coords t) 1 = 128
    ∧ win0_3.xsize (grid0.coords t) 0 = min 560 (10000 - t.val * 560))

/-- The resident inputs' blocks at the first point start at row 0, column 0. -/
theorem first_facts : win0_0.index t0 0 = 0 ∧ win0_0.index t0 1 = 0 ∧ win0_1.index t0 0 = 0 ∧ win0_1.index t0 1 = 0 := by
  decide +kernel

/-- THE VALUE OF A STEP. Whatever `d` the clipped fetch left in the adjacency buffer past the array's end, the rows
    of relu(buffer · (x · w)) that the write-back moves are the corresponding rows of relu(adj · (x · w)): entry
    (r, l) of the product reads row r of the buffer only, and row r, being moved, is inside the array, where the fetch
    put row 560 · t + r of adj; and entry (k, l) of x · w is the sum over j of x(k, j) · w(j, l). -/
theorem out_block (c : Dev nD) (t : Fin cfg0.N) (d : S560x10000.Idx → EReal) :
    win0_3.cut (grid0.coords t) (k0_pay2 (F := Ideal) (win0_2.fill (grid0.coords t) d (iblk m c 2 t)) (xw m c))
      = (win0_3.blk t).view.read (Elt Ideal) (G m c) := by
  funext j
  obtain ⟨hi20, hi21, hi30, hi31, hx0, hx21, hx31, hx30⟩ := grid_facts t
  have hj0 : (j 0).val < win0_3.xsize (grid0.coords t) 0 := (j 0).isLt
  have hj1 : (j 1).val < win0_3.xsize (grid0.coords t) 1 := (j 1).isLt
  have hr560 : (j 0).val < 560 := by rw [hx30] at hj0; omega
  have hl128 : (j 1).val < 128 := by rw [hx31] at hj1; exact hj1
  have hrl : win0_3.xinj (grid0.coords t) j = ix2 (⟨(j 0).val, hr560⟩ : Fin 560) (⟨(j 1).val, hl128⟩ : Fin 128) :=
    funext fun a => Fin.ext (by match a with | ⟨0, _⟩ => rfl | ⟨1, _⟩ => rfl)
  show k0_pay2 (F := Ideal) _ _ (win0_3.xinj (grid0.coords t) j) = _
  rw [hrl, Payload.pay2_apply, View.read_apply]
  unfold G GraphConv.aggOfProj
  refine congrArg (fun s => max s 0) (Finset.sum_congr rfl fun k _ => ?_)
  -- the adjacency entry: row (j 0) of the fetched block is inside the array, so the fetch put the array's entry there
  have hm : win0_2.moved (grid0.coords t) (ix2 (⟨(j 0).val, hr560⟩ : Fin 560) k) = true :=
    (win0_2.moved_iff _ _).mpr fun a => by
      match a with
      | ⟨0, _⟩ => show (j 0).val < win0_2.xsize (grid0.coords t) 0; rw [hx0]; exact hj0
      | ⟨1, _⟩ => show k.val < win0_2.xsize (grid0.coords t) 1; rw [hx21]; exact k.isLt
  have eA : win0_2.fill (grid0.coords t) d (iblk m c 2 t) (ix2 (⟨(j 0).val, hr560⟩ : Fin 560) k)
      = V m c main_arg1 (ix2 ((win0_3.blk t).view.emb j 0) k) := by
    unfold Window.fill; rw [dif_pos hm]
    unfold iblk; rw [View.read_apply]
    show V m c main_arg1 _ = V m c main_arg1 _
    refine congrArg _ (funext fun a => Fin.ext ?_)
    match a with
    | ⟨0, _⟩ =>
      show win0_2.index t 0 * 560 + 1 * (j 0).val = win0_3.index t 0 * 560 + 1 * (j 0).val
      rw [hi20, hi30]
    | ⟨1, _⟩ =>
      show win0_2.index t 1 * 10000 + 1 * k.val = k.val
      rw [hi21]; omega
  have eB : xw m c (ix2 k (⟨(j 1).val, hl128⟩ : Fin 128))
      = GraphConv.proj (V m c main_arg0) (V m c main_arg2) (ix2 k ((win0_3.blk t).view.emb j 1)) := by
    obtain ⟨hf00, hf01, hf10, hf11⟩ := first_facts
    unfold xw
    refine (Payload.pay1_apply (iblk m c 0 t0) (iblk m c 1 t0) k ⟨(j 1).val, hl128⟩).trans ?_
    unfold GraphConv.proj
    refine Finset.sum_congr rfl fun j' _ => ?_
    have e0 : iblk m c 0 t0 (ix2 k j') = V m c main_arg0 (ix2 (ix2 k ((win0_3.blk t).view.emb j 1) 0) j') := by
      unfold iblk; rw [View.read_apply]
      show V m c main_arg0 _ = V m c main_arg0 _
      refine congrArg _ (funext fun a => Fin.ext ?_)
      match a with
      | ⟨0, _⟩ => show win0_0.index t0 0 * 10000 + 1 * k.val = k.val; rw [hf00]; omega
      | ⟨1, _⟩ => show win0_0.index t0 1 * 128 + 1 * j'.val = j'.val; rw [hf01]; omega
    have e1 : iblk m c 1 t0 (ix2 j' (⟨(j 1).val, hl128⟩ : Fin 128))
        = V m c main_arg2 (ix2 j' (ix2 k ((win0_3.blk t).view.emb j 1) 1)) := by
      unfold iblk; rw [View.read_apply]
      show V m c main_arg2 _ = V m c main_arg2 _
      refine congrArg _ (funext fun a => Fin.ext ?_)
      match a with
      | ⟨0, _⟩ => show win0_1.index t0 0 * 128 + 1 * j'.val = j'.val; rw [hf10]; omega
      | ⟨1, _⟩ =>
        show win0_1.index t0 1 * 128 + 1 * (j 1).val = win0_3.index t 1 * 128 + 1 * (j 1).val
        rw [hf11, hi31]
    exact congrArg₂ (· * ·) e0 e1
  exact congrArg₂ (· * ·) eA eB

/-! ## The proof data -/

/-- Between grid steps: before the first, the scratch at anything; after any step, at x · w. -/
def PhiS (c : Dev nD) : ℕ → sProp 𝕄
  | 0 => Pipeline.ΦA spec0 c
  | _ + 1 => iprop(iprop(owns (c : Thread nD τ) scr fullShare (xw m c)) ∗ (∃ r, prngReg c r))

/-- After a step the resident inputs' buffers hold their blocks, the adjacency buffer its block (on the rows the
    fetch moved), the result's buffer the block of relu(adj · (x · w)) (on the rows the write-back moves); the
    rows past the array's end are filled out with zeros here and are never consulted. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) ((win0_3.blk t).view.read (Elt Ideal) (G m c))
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) :
    (dats m 0 c).after 2 t = win0_2.fill (grid0.coords t) (fun _ => (0 : EReal)) (iblk m c 2 t) := by dsimp only [dats]
theorem after_3 (c : Dev nD) (t : Fin cfg0.N) :
    (dats m 0 c).after 3 t
      = win0_3.fill (grid0.coords t) (fun _ => (0 : EReal)) ((win0_3.blk t).view.read (Elt Ideal) (G m c)) := by
  dsimp only [dats]

/-- The resident inputs' buffers hold their blocks at every step, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
/-- The adjacency buffer was just fetched: its block on the rows inside the array, anything (`d`) past them. -/
theorem before_2 (c : Dev nD) (t : Fin cfg0.N) (d) :
    (dats m 0 c).before 2 t d = win0_2.fill (grid0.coords t) d (iblk m c 2 t) := by
  rw [(dats m 0 c).before_fetched 2 t (fetch0_2 t)]
  unfold Dat.fetched Dat.blockOf iblk; rw [A_eq]
/-- The result's buffer holds anything: the step before wrote it back. -/
theorem before_3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-! ## The body obligation -/

/-- At every grid step: the step's triple applies to what the buffers hold; the result block's rows inside the
    array are those of relu(adj · (x · w)) (`out_block`), which is all a clipped window's obligation states. -/
theorem body_obligation (c : Dev nD) : BodyObligationLoose (dats m 0 c) (defs₀ (F := Ideal)) Variants.none () Set.univ := fun t => by
  rw [bigSep_W0, bigSep_W0]
  simp only
  rw [show (dats m 0 c).owesAt () t.succ = (dats m 0 c).owesAt () t.castSucc from rfl,
    show (dats m 0 c).Φ t.succ = iprop(iprop(owns (c : Thread nD τ) scr fullShare (xw m c)) ∗ (∃ r, prngReg c r)) from rfl]
  show _ ⊢ wp _ _ _ (bodyAt0 t) _
  -- the rows of the stored block that the write-back moves are those of relu(adj · (x · w)), whatever the fetch
  -- left past the array's end; so the stored block is "that block, filled out with itself"
  have hres : ∀ d2 : S560x10000.Idx → EReal,
      win0_3.fill (grid0.coords t) (k0_pay2 (F := Ideal) (win0_2.fill (grid0.coords t) d2 (iblk m c 2 t)) (xw m c))
        (win0_3.cut (grid0.coords t) ((dats m 0 c).after 3 t))
      = k0_pay2 (F := Ideal) (win0_2.fill (grid0.coords t) d2 (iblk m c 2 t)) (xw m c) := fun d2 =>
    win0_3.fill_congr_cut (grid0.coords t) (by rw [after_3, win0_3.cut_fill, out_block])
  -- and the adjacency buffer still holds what the fetch put there
  have hadj : ∀ d2 : S560x10000.Idx → EReal,
      win0_2.fill (grid0.coords t) d2 (win0_2.cut (grid0.coords t) ((dats m 0 c).after 2 t))
        = win0_2.fill (grid0.coords t) d2 (iblk m c 2 t) := fun d2 => by rw [after_2, win0_2.cut_fill]
  by_cases h0 : t.val = 0
  · -- the first step: the scratch arrives at anything and leaves at x · w
    have hc : atFirst (grid0.coords t) := (atFirst_iff t).mpr h0
    have ht : t = t0 := Fin.ext h0
    rw [show (dats m 0 c).Φ t.castSucc = Pipeline.ΦA spec0 c from by show PhiS m c t.val = _; rw [h0]; rfl, PhiA_eq]
    iintro ⟨⟨⟨%S, HS⟩, Hr⟩, Ho, ⟨%d0, H0⟩, ⟨%d1, H1⟩, ⟨%d2, H2⟩, ⟨%d3, H3⟩⟩
    rw [before_0 m c t d0, before_1 m c t d1, before_2 m c t d2, before_3 m c t d3]
    iapply (first_step (F := Ideal) c Set.univ (grid0.coords t) hc (cfg0.slots t 0) (cfg0.slots t 1) (cfg0.slots t 2) (cfg0.slots t 3)
      (iblk m c 0 t) S (iblk m c 1 t) (win0_2.fill (grid0.coords t) d2 (iblk m c 2 t)) d3 _)
    isplitl [H0 H1 H2 H3 HS]
    · isplitl [H0]; · iexact H0
      isplitl [H1]; · iexact H1
      isplitl [H2]; · iexact H2
      isplitl [H3]; · iexact H3
      iexact HS
    have hxw : k0_pay1 (F := Ideal) (iblk m c 0 t) (iblk m c 1 t) = xw m c := by rw [ht]; rfl
    rw [hxw]
    iintro ⟨H0, H1, H2, H3, HS⟩
    isplitl [HS Hr]
    · isplitl [HS]; · iexact HS
      iexact Hr
    isplitl [Ho]; · iexact Ho
    isplitl [H0]; · rw [after_0]; iexact H0
    isplitl [H1]; · rw [after_1]; iexact H1
    isplitl [H2]
    · iexists d2
      change _ ⊢ owns (c : Thread nD τ) (stage0_2 (cfg0.slots t 2)) fullShare
        (win0_2.fill (grid0.coords t) d2 (win0_2.cut (grid0.coords t) ((dats m 0 c).after 2 t)))
      rw [hadj d2]
    · iexists k0_pay2 (F := Ideal) (win0_2.fill (grid0.coords t) d2 (iblk m c 2 t)) (xw m c)
      change _ ⊢ owns (c : Thread nD τ) (stage0_3 (cfg0.slots t 3)) fullShare
        (win0_3.fill (grid0.coords t) (k0_pay2 (F := Ideal) (win0_2.fill (grid0.coords t) d2 (iblk m c 2 t)) (xw m c))
          (win0_3.cut (grid0.coords t) ((dats m 0 c).after 3 t)))
      rw [hres d2]
  · -- a later step: the scratch arrives at x · w and leaves untouched
    have hc : ¬atFirst (grid0.coords t) := fun h => h0 ((atFirst_iff t).mp h)
    obtain ⟨n, hn⟩ : ∃ n, t.val = n + 1 := Nat.exists_eq_succ_of_ne_zero h0
    rw [show (dats m 0 c).Φ t.castSucc = iprop(iprop(owns (c : Thread nD τ) scr fullShare (xw m c)) ∗ (∃ r, prngReg c r)) from by
      show PhiS m c t.val = _; rw [hn]; rfl]
    iintro ⟨⟨HS, Hr⟩, Ho, ⟨%d0, H0⟩, ⟨%d1, H1⟩, ⟨%d2, H2⟩, ⟨%d3, H3⟩⟩
    rw [before_0 m c t d0, before_1 m c t d1, before_2 m c t d2, before_3 m c t d3]
    iapply (later_step (F := Ideal) c Set.univ (grid0.coords t) hc (cfg0.slots t 0) (cfg0.slots t 1) (cfg0.slots t 2) (cfg0.slots t 3)
      (iblk m c 0 t) (xw m c) (iblk m c 1 t) (win0_2.fill (grid0.coords t) d2 (iblk m c 2 t)) d3 _)
    isplitl [H0 H1 H2 H3 HS]
    · isplitl [H0]; · iexact H0
      isplitl [H1]; · iexact H1
      isplitl [H2]; · iexact H2
      isplitl [H3]; · iexact H3
      iexact HS
    iintro ⟨H0, H1, H2, H3, HS⟩
    isplitl [HS Hr]
    · isplitl [HS]; · iexact HS
      iexact Hr
    isplitl [Ho]; · iexact Ho
    isplitl [H0]; · rw [after_0]; iexact H0
    isplitl [H1]; · rw [after_1]; iexact H1
    isplitl [H2]
    · iexists d2
      change _ ⊢ owns (c : Thread nD τ) (stage0_2 (cfg0.slots t 2)) fullShare
        (win0_2.fill (grid0.coords t) d2 (win0_2.cut (grid0.coords t) ((dats m 0 c).after 2 t)))
      rw [hadj d2]
    · iexists k0_pay2 (F := Ideal) (win0_2.fill (grid0.coords t) d2 (iblk m c 2 t)) (xw m c)
      change _ ⊢ owns (c : Thread nD τ) (stage0_3 (cfg0.slots t 3)) fullShare
        (win0_3.fill (grid0.coords t) (k0_pay2 (F := Ideal) (win0_2.fill (grid0.coords t) d2 (iblk m c 2 t)) (xw m c))
          (win0_3.cut (grid0.coords t) ((dats m 0 c).after 3 t)))
      rw [hres d2]

end Cert.KernelIdeal.KValue

end
-- ==== Proof.KernelFinal.lean ====
/-
  From the grid steps to the whole result array of the graph-convolution kernel, on the extended reals.

  Before the first step the scratch holds anything, which is what the launch hands the region; after the last
  it holds x · w, which is in particular "something": so the step invariant starts from and returns to the
  launch's own. Each step writes back the rows of its result block that lie inside the array, and those are the
  corresponding rows of relu(adj · (x · w)). Row i of the array lies in block i / 560, whose rows inside the
  array are 560 · (i / 560) up to the smaller of that plus 560 and 10000; every column lies in every block. So
  the written-back blocks cover the array, and it ends at relu(adj · (x · w)) at every entry. The three
  argument arrays are inputs of the pipeline, never written back: they end as they began.
-/
import proofs.«181057_g37048387895419_cont_8to1_b_82_9_alg».proof.Proof.KernelValue

set_option maxRecDepth 16384

noncomputable section

open scoped BigOperators

namespace Cert.KernelIdeal.KFinal

open Cert.KernelIdeal Cert.KernelIdeal.Gen Cert.KernelIdeal.Body Cert.KernelIdeal.KValue
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The invariant at the two ends -/

/-- What the launch hands the region is the invariant before the first step: the scratch at anything. -/
theorem hin (c : Dev nD) : Pipeline.ΦA spec0 c ⊢ (dats m 0 c).Φ 0 := by
  show Pipeline.ΦA spec0 c ⊢ Pipeline.ΦA spec0 c
  exact Idealize.SL.BI.Entails.refl _

/-- After the last step the scratch holds x · w; forgetting which contents those are gives the launch's
    invariant back. -/
theorem hout (c : Dev nD) : (dats m 0 c).Φ (Fin.last cfg0.N) ⊢ Pipeline.ΦA spec0 c := by
  rw [show (dats m 0 c).Φ (Fin.last cfg0.N)
      = iprop(iprop(owns (c : Thread nD τ) scr fullShare (xw m c)) ∗ (∃ r, prngReg c r)) from rfl, Body.PhiA_eq]
  iintro ⟨HS, Hg⟩
  isplitl [HS]
  · iexists _; iexact HS
  iexact Hg

/-! ## The run -/

set_option backward.isDefEq.respectTransparency.types false in
/-- From any memory with zero counters every weakly fair execution of @main on the TensorCores terminates, and
    every final state has each array of the pipeline at its entry contents overwritten by what the steps wrote
    back, and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-! ## From the blocks to the array -/

/-- What step `t` writes back is block `t` of relu(adj · (x · w)): the rows of the stored block inside the array. -/
theorem flushed_eq (c : Dev nD) (t : Fin cfg0.N) :
    (dats m 0 c).flushed 3 t = (win0_3.blk t).view.read (Elt Ideal) (G m c) := by
  show win0_3.cut (grid0.coords t) ((dats m 0 c).after 3 t) = _
  rw [after_3]
  exact win0_3.cut_fill _ _ _

/-- An index of the array is in step `t`'s block iff each coordinate is in the block's range on its axis: from the
    block's start, as many as lie inside the array. -/
theorem mem_blk (t : Fin cfg0.N) (i : S10000x128.Idx) :
    i ∈ (win0_3.blk t).view.set ↔ ∀ a : Fin 2, win0_3.index t a * win0_3.size a ≤ (i a).val
      ∧ (i a).val < win0_3.index t a * win0_3.size a + win0_3.xsize (grid0.coords t) a := by
  show i ∈ ((View.whole main_v0).slice (win0_3.rect t)).set ↔ _
  rw [View.set_slice_whole, Rect.mem_set_unit]
  exact Iff.rfl

/-- Every entry of the array is in some step's written-back block: row i in block i / 560. -/
theorem cover (i : S10000x128.Idx) :
    ∃ t : Fin cfg0.N, (cfg0.win 3).flush t = true ∧ i ∈ ((cfg0.win 3).blk t).view.set := by
  have hi0 : (i 0).val < 10000 := idx2_lt0 i
  have hi1 : (i 1).val < 128 := idx2_lt1 i
  have hN : cfg0.N = 18 := N_0
  obtain ⟨t, ht⟩ : ∃ t : Fin cfg0.N, t.val = (i 0).val / 560 := ⟨⟨(i 0).val / 560, by rw [hN]; omega⟩, rfl⟩
  refine ⟨t, flush0_3 t, ?_⟩
  show i ∈ (win0_3.blk t).view.set
  rw [mem_blk]
  obtain ⟨-, -, hi30, hi31, -, -, hx31, hx30⟩ := grid_facts t
  intro a
  match a with
  | ⟨0, _⟩ =>
    show win0_3.index t 0 * 560 ≤ (i 0).val ∧ (i 0).val < win0_3.index t 0 * 560 + win0_3.xsize (grid0.coords t) 0
    rw [hi30, hx30, ht]
    omega
  | ⟨1, _⟩ =>
    show win0_3.index t 1 * 128 ≤ (i 1).val ∧ (i 1).val < win0_3.index t 1 * 128 + win0_3.xsize (grid0.coords t) 1
    rw [hi31, hx31]
    omega

/-- The result array after the run is relu(adj · (x · w)), every entry. -/
theorem final (c : Dev nD) : (dats m 0 c).arrAt 3 cfg0.N = G m c :=
  (dats m 0 c).arrAt_eq_of_cover 3 (G m c) (fun t _ => flushed_eq m c t) cover

/-! ## The run, read -/

/-- The kernel terminates with its result array at relu(adj · (x · w)) of the argument arrays as launched, and the
    argument arrays unchanged. -/
theorem run : θ_run defs (onTc (τ := τ) (main (F := Ideal))) ⟨m, fun _ => 0, ρ⟩ (fun r => ∀ c : Dev nD,
      r.2.mem ((c.tc : Thread nD τ).loc main_v0)
        = GraphConv.aggOfProj (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (final m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.KFinal

end
-- ==== Proof.RefRead.lean ====
/-
  The reference program, read entry by entry, is relu((adj · x) · w). Its first contraction forms, at node i
  and input feature j, the sum over the nodes k of adj(i, k) · x(k, j); its second forms, at node i and output
  feature l, the sum over j of that entry times w(j, l); its last step takes the maximum with the constant zero.
  The index functions the contractions read their operands at are the pairs of coordinates written out, so
  after unfolding, the two sides are the same nested sum.
-/
import proofs.«181057_g37048387895419_cont_8to1_b_82_9_alg».proof.Proof.Spec
import proofs.«181057_g37048387895419_cont_8to1_b_82_9_alg».proof.Proof.Gen.ReferenceIdeal.Read

noncomputable section

open scoped BigOperators

namespace Cert.ReferenceIdeal.RefValue

open Cert.ReferenceIdeal Idealize.ShloMosaic Idealize.ShloMosaic.ValueIdx Idealize.SL.Sem

/-- The adjacency entry the first contraction reads at result index (i, j) and contraction index k is (i, k). -/
theorem lidx_v0_eq (i : S10000x128.Idx) (j : Fin 128) (k : Fin 10000) :
    Read.lidx_main_v0 (Read.lidx_main_v1 i j) k = ix2 (i 0) k :=
  funext fun a => Fin.ext (by match a with | ⟨0, _⟩ => rfl | ⟨1, _⟩ => rfl)

/-- The feature entry the first contraction reads at result index (i, j) and contraction index k is (k, j). -/
theorem ridx_v0_eq (i : S10000x128.Idx) (j : Fin 128) (k : Fin 10000) :
    Read.ridx_main_v0 (Read.lidx_main_v1 i j) k = ix2 k j :=
  funext fun a => Fin.ext (by match a with | ⟨0, _⟩ => rfl | ⟨1, _⟩ => rfl)

/-- The weight entry the second contraction reads at result index i and contraction index j is (j, i 1). -/
theorem ridx_v1_eq (i : S10000x128.Idx) (j : Fin 128) :
    Read.ridx_main_v1 i j = ix2 j (i 1) :=
  funext fun a => Fin.ext (by match a with | ⟨0, _⟩ => rfl | ⟨1, _⟩ => rfl)

/-- The reference's result is relu((adj · x) · w), as the specification writes it. -/
theorem val_main_v2_eq_projOfAgg (x0 : (⟨Cert.ReferenceIdeal.S10000x128, .f32⟩ : BufTy).Contents (Elt Ideal))
    (x1 : (⟨Cert.ReferenceIdeal.S10000x10000, .f32⟩ : BufTy).Contents (Elt Ideal))
    (x2 : (⟨Cert.ReferenceIdeal.S128x128, .f32⟩ : BufTy).Contents (Elt Ideal)) :
    Cert.ReferenceIdeal.Read.val_main_v2 (F := Ideal) x0 x1 x2 = GraphConv.projOfAgg x0 x1 x2 := by
  funext i
  rw [Read.val_main_v2_apply, Read.val_main_v1_apply, Read.val_main_call0_v0_apply, Read.val_main_call0_cst_apply]
  simp only [Read.val_main_v0_apply, lidx_v0_eq, ridx_v0_eq, ridx_v1_eq]
  rw [Ideal.maximumf_def, Ideal.ofBits_def, Ideal.ofBits_zero_f32]
  rfl

end Cert.ReferenceIdeal.RefValue

end
-- ==== Proof.LibTripleSum.lean ====
/-
  Associativity of a triple product of finite families.

  For real families a(k), b(k, j), c(j) over any finite index types,
      ∑ k, a(k) · (∑ j, b(k, j) · c(j)) = ∑ j, (∑ k, a(k) · b(k, j)) · c(j):
  distribute both products over the inner sums, exchange the two sums, reassociate each term. This is the
  entrywise content of (A · B) · C = A · (B · C) for matrices. The coercion of the reals into the extended reals is
  additive and multiplicative, so it commutes with finite sums, and the same identity holds for extended reals that
  are coercions of reals — the form a proof about finite inputs meets. (With an infinite entry the two sides can
  differ, for instance through a product 0 · ∞ present on one side only.)
-/
import Mathlib.Data.EReal.Basic
import Mathlib.Algebra.BigOperators.Ring.Finset
import Mathlib.Algebra.BigOperators.Group.Finset.Sigma

noncomputable section

open scoped BigOperators

namespace Idealize.ShloMosaic.TripleSum

/-- The coercion of the reals into the extended reals commutes with finite sums. -/
theorem coe_finsetSum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product over the reals, for arbitrary finite index types. -/
theorem real_sum_assoc {κ ι : Type*} [Fintype κ] [Fintype ι] (a : κ → ℝ) (b : κ → ι → ℝ) (c : ι → ℝ) :
    ∑ k, a k * ∑ j, b k j * c j = ∑ j, (∑ k, a k * b k j) * c j := by
  simp only [Finset.mul_sum, Finset.sum_mul]
  rw [Finset.sum_comm]
  exact Finset.sum_congr rfl fun j _ => Finset.sum_congr rfl fun k _ => (mul_assoc _ _ _).symm

/-- Associativity of the triple product over extended reals that are coercions of reals. -/
theorem ereal_sum_assoc {κ ι : Type*} [Fintype κ] [Fintype ι] (a : κ → ℝ) (b : κ → ι → ℝ) (c : ι → ℝ) :
    ∑ k, (a k : EReal) * ∑ j, (b k j : EReal) * (c j : EReal)
      = ∑ j, (∑ k, (a k : EReal) * (b k j : EReal)) * (c j : EReal) := by
  simp only [← EReal.coe_mul, ← coe_finsetSum]
  exact congrArg _ (real_sum_assoc a b c)

end Idealize.ShloMosaic.TripleSum

end
-- ==== Proof.Assoc.lean ====
/-
  relu(adj · (x · w)) = relu((adj · x) · w) on finite entries. Entry (i, l) of either side is relu of a double sum
  over the nodes k and the input features j of adj(i, k) · x(k, j) · w(j, l), bracketed in the two ways; the two
  brackets are equal for real families (the triple-sum law, proved over arbitrary finite index types in its own
  module) and therefore for extended reals that are coercions of reals. When every entry of the feature matrix,
  of the adjacency matrix and of the weight matrix is a real, choosing the real witnesses reduces the statement
  to that law. (At the infinities the two brackets can differ, hence the finiteness hypotheses.)
-/
import proofs.«181057_g37048387895419_cont_8to1_b_82_9_alg».proof.Proof.Spec
import proofs.«181057_g37048387895419_cont_8to1_b_82_9_alg».proof.Proof.LibTripleSum

noncomputable section

open scoped BigOperators

namespace GraphConv

open Idealize.ShloMosaic Idealize.ShloMosaic.ValueIdx Idealize.ShloMosaic.TripleSum

/-- On real entries, projecting first and aggregating afterwards equals aggregating first and projecting
    afterwards. -/
theorem aggOfProj_eq_projOfAgg (x : SNodeFeat.Idx → EReal) (adj : SAdj.Idx → EReal) (w : SWeight.Idx → EReal)
    (hx : ∀ i, ∃ r : ℝ, x i = (r : EReal)) (ha : ∀ i, ∃ r : ℝ, adj i = (r : EReal))
    (hw : ∀ i, ∃ r : ℝ, w i = (r : EReal)) :
    aggOfProj x adj w = projOfAgg x adj w := by
  choose xr hxr using hx
  choose ar har using ha
  choose wr hwr using hw
  obtain rfl : x = fun i => (xr i : EReal) := funext hxr
  obtain rfl : adj = fun i => (ar i : EReal) := funext har
  obtain rfl : w = fun i => (wr i : EReal) := funext hwr
  funext i
  unfold aggOfProj projOfAgg proj
  exact congrArg (fun t => max t 0)
    (ereal_sum_assoc (fun k => ar (ix2 (i 0) k)) (fun k j => xr (ix2 k j)) (fun j => wr (ix2 j (i 1))))

end GraphConv

end
-- ==== Proof.Finite.lean ====
/-
  The finiteness precondition, read back. The predicate is the conjunction of three tests of the form
  "every entry a of the array satisfies |a| < +∞", one per argument. A conjunction of truth values is 1 exactly
  when both are; a reduction by "and" over a whole array that ends in 1 met a 1 at every index; and an extended
  real a whose absolute value max(a, −a) lies strictly below +∞ is neither −∞ nor +∞, hence a real number.
  So under the precondition every entry of the feature matrix, of the adjacency matrix and of the weight
  matrix is the coercion of a real.
-/
import proofs.«181057_g37048387895419_cont_8to1_b_82_9_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic

/-- The scalar shape has one index. -/
instance : Subsingleton S_.Idx := ⟨fun a b => funext fun d => d.elim0⟩

/-- The f32 word with all exponent bits set and no others denotes +∞. -/
theorem ofBits_inf_f32 : Ideal.ofBits .f32 0x7F800000#32 = ⊤ := by simp [Ideal.ofBits, Ideal.ieee]

/-- An extended real whose absolute value is strictly below +∞ is a real. -/
theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- One test "all |a| < +∞" that came out 1 makes every entry of its array a real. -/
theorem real_of_all {s : Shape} {axes : List (Fin s.rank)} (dims : Fin S_.rank → Fin s.rank)
    (hb : S_.BroadcastsInDim s dims) (hr : s.ReducesTo axes S_) (hu : 0 < S_.numel) (x : FVec Ideal s .f32)
    (e : Host.reduce IntOp.andi
          (cmpf .olt (Host.absf x) (broadcastInDim s dims hb (constant (F := Ideal) S_ .f32 0x7F800000#32)))
          (constantI S_ 1 1#1) hr hu ValueIdx.ix0 = 1#1) (i : s.Idx) :
    ∃ r : ℝ, x i = (r : EReal) := by
  have h := Host.reduce_andi_all _ _ hr hu ValueIdx.ix0 e i
  change FloatOps.cmpf (F := Ideal) .olt (FloatOps.hostAbsf (x i)) (FloatOps.ofBits .f32 0x7F800000#32) = 1#1 at h
  rw [Ideal.cmpf_def, Ideal.hostAbsf_def, Ideal.absf_def, Ideal.ofBits_def, ofBits_inf_f32] at h
  exact real_of_abs_lt_top (x i) h

/-- Under the finiteness precondition every entry of each of the three arguments is a real. -/
theorem real_of_pre [Cert.Pre_finite_inputs.Facts] (x : FVec Ideal Cert.Pre_finite_inputs.S10000x128 .f32)
    (adj : FVec Ideal Cert.Pre_finite_inputs.S10000x10000 .f32) (w : FVec Ideal Cert.Pre_finite_inputs.S128x128 .f32)
    (h : Cert.Pre_finite_inputs.fn (F := Ideal) x adj w = fun _ => 1#1) :
    (∀ i, ∃ r : ℝ, x i = (r : EReal)) ∧ (∀ i, ∃ r : ℝ, adj i = (r : EReal)) ∧ (∀ i, ∃ r : ℝ, w i = (r : EReal)) := by
  have h0 := congrFun h ValueIdx.ix0
  dsimp only [Cert.Pre_finite_inputs.fn] at h0
  obtain ⟨hxa, hw⟩ := IntOp.andi_eq_one.1 h0
  obtain ⟨hx, ha⟩ := IntOp.andi_eq_one.1 hxa
  exact ⟨real_of_all _ _ _ _ x hx, real_of_all _ _ _ _ adj ha, real_of_all _ _ _ _ w hw⟩

end Cert.Pre_finite_inputs.Finite

end
-- ==== Proof.lean ====
/-
  A graph-convolution layer over 10000 nodes with 128 input and 128 output features: the kernel computes
  relu(adj · (x · w)) — it projects the features once, keeps the projection, and aggregates it over the
  neighbours block of rows by block of rows — and the reference computes relu((adj · x) · w). On the extended
  reals the two brackets of the triple product can differ at the infinities; under the stated precondition every
  entry of x, adj and w is a real, and there the matrix product is associative, so the two results are equal
  entry by entry. Each of the three programs terminates, faults nowhere and leaves its argument arrays as it
  found them; the kernel's idealized text is its own text read on the extended reals, so nothing is owed for
  that step.
-/
import proofs.«181057_g37048387895419_cont_8to1_b_82_9_alg».proof.Defs
import proofs.«181057_g37048387895419_cont_8to1_b_82_9_alg».proof.Proof.Gen.Kernel
import proofs.«181057_g37048387895419_cont_8to1_b_82_9_alg».proof.Proof.Gen.Kernel.Skeleton
import proofs.«181057_g37048387895419_cont_8to1_b_82_9_alg».proof.Proof.Gen.Kernel.Launch
import proofs.«181057_g37048387895419_cont_8to1_b_82_9_alg».proof.Proof.Gen.Kernel.Points
import proofs.«181057_g37048387895419_cont_8to1_b_82_9_alg».proof.Proof.Gen.Kernel.Frame
import proofs.«181057_g37048387895419_cont_8to1_b_82_9_alg».proof.Proof.Gen.KernelIdeal
import proofs.«181057_g37048387895419_cont_8to1_b_82_9_alg».proof.Proof.Gen.KernelIdeal.Skeleton
import proofs.«181057_g37048387895419_cont_8to1_b_82_9_alg».proof.Proof.Gen.KernelIdeal.Launch
import proofs.«181057_g37048387895419_cont_8to1_b_82_9_alg».proof.Proof.Gen.KernelIdeal.Points
import proofs.«181057_g37048387895419_cont_8to1_b_82_9_alg».proof.Proof.Gen.KernelIdeal.Frame
import proofs.«181057_g37048387895419_cont_8to1_b_82_9_alg».proof.Proof.Gen.ReferenceIdeal
import proofs.«181057_g37048387895419_cont_8to1_b_82_9_alg».proof.Proof.Gen.ReferenceIdeal.Run
import proofs.«181057_g37048387895419_cont_8to1_b_82_9_alg».proof.Proof.Gen.ReferenceIdeal.Read
import proofs.«181057_g37048387895419_cont_8to1_b_82_9_alg».proof.Proof.Gen.Pre_finite_inputs
import Idealize.ShloMosaic.Adequacy
import Idealize.ShloMosaic.Init
import proofs.«181057_g37048387895419_cont_8to1_b_82_9_alg».proof.Proof.FrameBits
import proofs.«181057_g37048387895419_cont_8to1_b_82_9_alg».proof.Proof.KernelFinal
import proofs.«181057_g37048387895419_cont_8to1_b_82_9_alg».proof.Proof.RefRead
import proofs.«181057_g37048387895419_cont_8to1_b_82_9_alg».proof.Proof.Assoc
import proofs.«181057_g37048387895419_cont_8to1_b_82_9_alg».proof.Proof.Finite

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.KFrame.frame (F := Bits) m ρ

/-- So does the kernel on the extended reals: the last three clauses of its run. -/
theorem frame_ki : Cert.frame_KernelIdeal := fun m ρ _ =>
  (θ_run Cert.KernelIdeal.defs _ _).mono (fun _ h c => (h c).2) (Cert.KernelIdeal.KFinal.run m ρ)

/-- So does the reference on the extended reals. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments and hold only finite entries there, the kernel
    ends at relu(adj · (x · w)) and the reference at relu((adj · x) · w) of the same three matrices, which are equal
    by associativity of the matrix product over the reals. -/
theorem algebraic : Cert.algebraic_KernelIdeal_ReferenceIdeal := by
  intro m ρ m' ρ' hpre hagree
  refine ⟨fun c => GraphConv.aggOfProj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    Cert.KernelIdeal.KFinal.run m ρ, ?_⟩
  refine (θ_run Cert.ReferenceIdeal.defs _ _).mono (fun _ h c => ⟨?_, (h c).2⟩) (Cert.ReferenceIdeal.Value.run (F := Ideal) m' ρ')
  obtain ⟨hx, ha, hw⟩ := Cert.Pre_finite_inputs.Finite.real_of_pre _ _ _ (hpre c)
  refine ((h c).1.trans ((Cert.ReferenceIdeal.Read.val_main_v2_eq _ _ _).trans
    (Cert.ReferenceIdeal.RefValue.val_main_v2_eq_projOfAgg _ _ _))).trans ?_
  rw [(hagree c).1, (hagree c).2.1, (hagree c).2.2]
  exact (GraphConv.aggOfProj_eq_projOfAgg _ _ _ hx ha hw).symm

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
